-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S1600000 .f32) (main_arg2 : IVec S1600000 32) (main_arg3 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg2 main_v9
  let main_c_3 : IVec S_ 1 := constantI S_ 1 1#1
  let main_v11 : IVec S_ 1 := (fun x v => Host.reduce IntOp.andi x v reducesTo_S1600000_S_d0 h_S_) main_v10 main_c_3
  let main_v12 : IVec S_ 1 := andi main_v8 main_v11
  main_v12
-- ==== Kernel.lean ====
abbrev S100000x128 : Shape := ⟨2, ![100000, 128]⟩
abbrev S1600000 : Shape := ⟨1, ![1600000]⟩
abbrev S10000x128 : Shape := ⟨2, ![10000, 128]⟩
abbrev S12500x128 : Shape := ⟨2, ![12500, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 29
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S100000x128, .f32⟩
  | .hbm, ⟨5, _⟩ => ⟨S12500x128, .f32⟩
  | .hbm, ⟨6, _⟩ => ⟨S12500x128, .f32⟩
  | .hbm, ⟨7, _⟩ => ⟨S1600000, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S12500x128, .f32⟩
  | .local _ .vmem, ⟨5, _⟩ => ⟨S12500x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S10000x128_S10000x128_0_0 : ∀ a, (![0, 0] : Fin 2 → Nat) a + S10000x128.size a ≤ S10000x128.size a
  h_S10000x128 : 0 < S10000x128.numel
  shapeCasts_S1600000_S12500x128 : S1600000.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  shapeCasts_S12500x128_S1600000 : S12500x128.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S12500x128.size a ≤ S12500x128.size a
  hwx1_0 : ∀ i : grid1.Coords, EltTy.bits .f32 = 32 ∨ (Rect.block (s := S12500x128) S12500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12500x128.size a ≤ S12500x128.size a
  hwx1_1 : ∀ i : grid1.Coords, EltTy.bits .f32 = 32 ∨ (Rect.block (s := S12500x128) S12500x128.size (cc1_transform_1 i) (hinb1_1 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S12500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S12500x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S1600000x1, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x128, .f32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result NAMED.  The program is two scaling regions among host
  operations; after the last host operation every unscoped buffer of a core holds the contents the
  program's fold through its segment boundaries gives it (`Gen.W4`: the launch memory, region 0's
  write-backs, the reshape, region 1's write-backs, the gather / multiply / scatter-add tail).  The run
  below keeps that reading for the result buffer `main_v20` beside the four arguments, which end as
  launched.  What the fold holds at `main_v20`, as a function of the arguments, is read in `KernelValue`.
-/
import proofs.«150289_j59090160058391_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing
    faulting; the result buffer ends at the last boundary's contents and the arguments as launched. -/
theorem run : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Named

end
-- ==== Proof.RegionValues.lean ====
/-
  What the two scaling regions leave in their output arrays, as functions of the arrays they find.
  Each region's body loads its input block whole, multiplies every entry by one literal and stores the
  product whole.  Region 0 walks the 100000 x 128 table in ten blocks of 10000 rows, block `t` of the
  output written from block `t` of the input, and the ten blocks tile the table; region 1 has one point
  whose block is the whole 12500 x 128 array.  So each output array ends holding, entry by entry, the
  input entry times the region's literal.
-/
import proofs.«150289_j59090160058391_2_alg».proof.Proof.Gen.KernelIdeal.Frame
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Every entry of an array times the float a 32-bit word denotes. -/
def scaledBy (w : BitVec 32) {S : Shape} (a : S.Idx → Elt F .f32) : S.Idx → Elt F .f32 :=
  fun i => FloatOps.mulf (a i) (FloatOps.ofBits .f32 w)

theorem zero_offsets : (![0, 0] : Fin 2 → Nat) = fun _ => 0 := funext fun a => by fin_cases a <;> rfl

/-! ## Region 0: the table times the word 0x3E800000 -/

/-- The body's stored value is its loaded block, entry by entry, times the literal. -/
theorem pay0_eq (x : Vec F S10000x128 .f32) : k0_pay1 x = scaledBy 0x3E800000#32 x := rfl

/-- The input and the output window move together over the grid. -/
theorem index0 : ∀ t : Fin cfg0.N, win0_0.index t (0 : Fin 2) = win0_1.index t (0 : Fin 2)
    ∧ win0_0.index t (1 : Fin 2) = win0_1.index t (1 : Fin 2)
    ∧ win0_1.index t (0 : Fin 2) ≤ 9 ∧ win0_1.index t (1 : Fin 2) = 0 :=
  (by decide +kernel : ∀ t : Fin grid0.N, _)

/-- Every one of the ten row blocks is some point's. -/
theorem index0_onto : ∀ q : Fin 10, ∃ t : Fin cfg0.N, win0_1.index t = ![q.val, 0] :=
  (by decide +kernel : ∀ q : Fin 10, ∃ t : Fin grid0.N, win0_1.index t = ![q.val, 0])

/-- What point `t` writes back is block `t` of the scaled table. -/
theorem flushed0_eq (c : Dev nD) (t : Fin cfg0.N) :
    (dat0 V c).flushed 1 t = ((cfg0.win 1).blk t).view.read (Elt F) (scaledBy 0x3E800000#32 (V c main_arg0)) := by
  show (cfg0.win 1).cut (grid0.coords t) ((dat0 V c).after 1 t) = _
  rw [after0_1]
  unfold out0_1
  rw [View.canon_unit_zero zero_offsets]
  simp only [View.ld_unit_zero (S := S10000x128) zero_offsets]
  rw [pay0_eq]
  obtain ⟨e0, e1, e2, e3⟩ := index0 t
  funext j
  show FloatOps.mulf (V c main_arg0 (((cfg0.win 0).blk t).view.emb j)) _ = FloatOps.mulf (V c main_arg0 (((cfg0.win 1).blk t).view.emb j)) _
  have h0 : ((cfg0.win 0).blk t).view.emb j = ((cfg0.win 1).blk t).view.emb j := by
    funext a; apply Fin.ext
    match a with
    | ⟨0, _⟩ => show win0_0.index t (0 : Fin 2) * 10000 + 1 * (j 0).val = win0_1.index t (0 : Fin 2) * 10000 + 1 * (j 0).val; omega
    | ⟨1, _⟩ => show win0_0.index t (1 : Fin 2) * 128 + 1 * (j 1).val = win0_1.index t (1 : Fin 2) * 128 + 1 * (j 1).val; omega
  rw [h0]

/-- An index of the table is in point `t`'s block iff each coordinate is in the block's range. -/
theorem mem_blk0 (t : Fin cfg0.N) (i : S100000x128.Idx) :
    i ∈ ((cfg0.win 1).blk t).view.set ↔ ∀ a : Fin 2, win0_1.index t a * S10000x128.size a ≤ (i a).val ∧ (i a).val < win0_1.index t a * S10000x128.size a + S10000x128.size a := by
  show i ∈ ((View.whole main_v0).slice (win0_1.rect t)).set ↔ _
  rw [View.set_slice_whole, Rect.mem_set_unit]
  exact Iff.rfl

/-- The ten blocks tile the table: row `r` is in the block of point `r / 10000`. -/
theorem cover0 (i : S100000x128.Idx) :
    ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := index0_onto ⟨(i 0).val / 10000, by omega⟩
  have q0 : win0_1.index t (0 : Fin 2) = (i 0).val / 10000 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 10000 ≤ (i 0).val ∧ (i 0).val < win0_1.index t (0 : Fin 2) * 10000 + 10000; omega
  | ⟨1, _⟩ => show win0_1.index t (1 : Fin 2) * 128 ≤ (i 1).val ∧ (i 1).val < win0_1.index t (1 : Fin 2) * 128 + 128; omega

/-- Region 0's output array after the region: the table it found, every entry times the literal. -/
theorem final0 (c : Dev nD) : (dat0 V c).arrAt 1 cfg0.N = scaledBy 0x3E800000#32 (V c main_arg0) :=
  (dat0 V c).arrAt_eq_of_cover 1 _ (fun t _ => flushed0_eq V c t) cover0

/-! ## Region 1: the reshaped edge weights times the word 0x3F400000 -/

/-- The body's stored value is its loaded block (under an identity cast), entry by entry, times the literal. -/
theorem pay1_eq (x : Vec F S12500x128 .f32) : k1_pay1 x = scaledBy 0x3F400000#32 x := by
  show mulf (shapeCast S12500x128 x shapeCasts_S12500x128_S12500x128) (broadcast S12500x128 (Scalar.ofBits .f32 0x3F400000#32)) = _
  rw [shapeCast_self]
  rfl

/-- The one point's blocks sit at the origin. -/
theorem index1 : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- What the point writes back is the whole scaled array, read through its block. -/
theorem flushed1_eq (c : Dev nD) (t : Fin cfg1.N) :
    (dat1 V c).flushed 1 t = ((cfg1.win 1).blk t).view.read (Elt F) (scaledBy 0x3F400000#32 (V c main_v1)) := by
  show (cfg1.win 1).cut (grid1.coords t) ((dat1 V c).after 1 t) = _
  rw [after1_1]
  unfold out1_1
  rw [View.canon_unit_zero zero_offsets]
  simp only [View.ld_unit_zero (S := S12500x128) zero_offsets]
  rw [pay1_eq]
  obtain ⟨e0, e1, e2, e3⟩ := index1 t
  funext j
  show FloatOps.mulf (V c main_v1 (((cfg1.win 0).blk t).view.emb j)) _ = FloatOps.mulf (V c main_v1 (((cfg1.win 1).blk t).view.emb j)) _
  have h0 : ((cfg1.win 0).blk t).view.emb j = ((cfg1.win 1).blk t).view.emb j := by
    funext a; apply Fin.ext
    match a with
    | ⟨0, _⟩ => show win1_0.index t (0 : Fin 2) * 12500 + 1 * (j 0).val = win1_1.index t (0 : Fin 2) * 12500 + 1 * (j 0).val; omega
    | ⟨1, _⟩ => show win1_0.index t (1 : Fin 2) * 128 + 1 * (j 1).val = win1_1.index t (1 : Fin 2) * 128 + 1 * (j 1).val; omega
  rw [h0]

/-- An index of the array is in the point's block iff each coordinate is in the block's range. -/
theorem mem_blk1 (t : Fin cfg1.N) (i : S12500x128.Idx) :
    i ∈ ((cfg1.win 1).blk t).view.set ↔ ∀ a : Fin 2, win1_1.index t a * S12500x128.size a ≤ (i a).val ∧ (i a).val < win1_1.index t a * S12500x128.size a + S12500x128.size a := by
  show i ∈ ((View.whole main_v2).slice (win1_1.rect t)).set ↔ _
  rw [View.set_slice_whole, Rect.mem_set_unit]
  exact Iff.rfl

/-- The one block is the whole array. -/
theorem cover1 (i : S12500x128.Idx) :
    ∃ t : Fin cfg1.N, (cfg1.win 1).flush t = true ∧ i ∈ ((cfg1.win 1).blk t).view.set := by
  have hi0 : (i 0).val < 12500 := (i 0).isLt
  have hi1 : (i 1).val < 128 := (i 1).isLt
  obtain ⟨e0, e1, e2, e3⟩ := index1 t1_0
  refine ⟨t1_0, flush1_1 t1_0, ?_⟩
  rw [mem_blk1]
  intro a
  match a with
  | ⟨0, _⟩ => show win1_1.index t1_0 (0 : Fin 2) * 12500 ≤ (i 0).val ∧ (i 0).val < win1_1.index t1_0 (0 : Fin 2) * 12500 + 12500; omega
  | ⟨1, _⟩ => show win1_1.index t1_0 (1 : Fin 2) * 128 ≤ (i 1).val ∧ (i 1).val < win1_1.index t1_0 (1 : Fin 2) * 128 + 128; omega

/-- Region 1's output array after the region: the array it found, every entry times the literal. -/
theorem final1 (c : Dev nD) : (dat1 V c).arrAt 1 cfg1.N = scaledBy 0x3F400000#32 (V c main_v1) :=
  (dat1 V c).arrAt_eq_of_cover 1 _ (fun t _ => flushed1_eq V c t) cover1

end Cert.KernelIdeal.Named

end
-- ==== Proof.KernelValue.lean ====
/-
  The idealized kernel's result as ONE term of its four argument arrays.
  Walking the program's fold back from the last boundary: the tail of host operations writes the result
  as a scatter-add, into region 0's output (the table, every entry times the word 0x3E800000), at the
  row indices (a negative index moved up by the row count), of the products of the scaled edge weights
  (region 1's output, flattened: every weight times the word 0x3F400000) with the gathered table rows
  (at the column indices, normalised the same way).  Neither region nor any host operation writes an
  argument, so the fold at an argument's buffer is the launch memory.
-/
import proofs.«150289_j59090160058391_2_alg».proof.Proof.RegionValues
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.SL.Sem
open Idealize.ShloMosaic.Pipeline (Dat)

variable {F : FTy → Type} [FloatOps F]

/-- An index vector with every negative entry moved up by 100000, as both gather and scatter take it. -/
def wrapNeg (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The kernel's result: scatter-add, into the table scaled by the first literal, of the edge weights
    scaled by the second literal times the gathered rows. -/
def result (x0 : FVec F S100000x128 .f32) (x1 : FVec F S1600000 .f32) (x2 x3 : IVec S1600000 32) :
    FVec F S100000x128 .f32 :=
  Host.scatterAdd scatter_S100000x128_S1600000x1_S1600000x128_1_0_0_1
    (scaledBy 0x3E800000#32 x0)
    (broadcastInDim S1600000x1 ![0] bcast_S1600000_S1600000x1_0 (wrapNeg x2))
    (mulf
      (broadcastInDim S1600000x128 ![0, 1] bcast_S1600000x1_S1600000x128_0_1
        (broadcastInDim S1600000x1 ![0] bcast_S1600000_S1600000x1_0
          (shapeCast S1600000 (scaledBy 0x3F400000#32 (shapeCast S12500x128 x1 shapeCasts_S1600000_S12500x128))
            shapeCasts_S12500x128_S1600000)))
      (Host.gather gather_S100000x128_S1600000x1_S1600000x128_1_0_n_n_0_1_1128 x0
        (broadcastInDim S1600000x1 ![0] bcast_S1600000_S1600000x1_0 (wrapNeg x3))))

variable (m : (ℓ : Loc nD τ sig) → Buf (Elt F) ℓ) (ρ : Dev nD → PrngReg)

/-! ## The fold at the buffers the tail reads -/

/-- No host operation between the regions writes buffer `b`. -/
theorem W2_of_ne (c : Dev nD) (b : Ref sig .tc) (hb : b ≠ main_v1) :
    W2 m ρ c (Proc.devRef .tc b) = W1 m ρ c (Proc.devRef .tc b) := by
  show StableHlo.after hostOps1 (W1 m ρ c) (Proc.devRef .tc b) = _
  simp only [StableHlo.after_cons, StableHlo.after_nil]
  rw [StableHlo.reshape_result_ne]
  exact hb

/-- Region 1 reads the edge weights reshaped to 12500 x 128. -/
theorem V2_main_v1 (c : Dev nD) :
    V2 m ρ c main_v1 = shapeCast S12500x128 (m ((c : Thread nD τ).loc main_arg1)) shapeCasts_S1600000_S12500x128 := by
  show StableHlo.after hostOps1 (W1 m ρ c) (Proc.devRef .tc main_v1) = _
  after_results
  rw [W1_of_ne m ρ c main_arg1 (by decide)]
  rfl

/-- Region 0's output at the tail: the launched table scaled. -/
theorem W3_main_v0 (c : Dev nD) :
    W3 m ρ c (Proc.devRef .tc main_v0) = scaledBy 0x3E800000#32 (m ((c : Thread nD τ).loc main_arg0)) := by
  rw [W3_of_ne m ρ c main_v0 (by decide), W2_of_ne m ρ c main_v0 (by decide)]
  exact (W1_arr m ρ c 1).trans (final0 (V0 m ρ) c)

/-- Region 1's output at the tail: the reshaped launched weights scaled. -/
theorem W3_main_v2 (c : Dev nD) :
    W3 m ρ c (Proc.devRef .tc main_v2)
      = scaledBy 0x3F400000#32 (shapeCast S12500x128 (m ((c : Thread nD τ).loc main_arg1)) shapeCasts_S1600000_S12500x128) := by
  rw [← V2_main_v1 m ρ c]
  exact (W3_arr m ρ c 1).trans (final1 (V2 m ρ) c)

/-- The table argument at the tail is as launched (region 0 stages it and never writes it back). -/
theorem W3_main_arg0 (c : Dev nD) : W3 m ρ c (Proc.devRef .tc main_arg0) = m ((c : Thread nD τ).loc main_arg0) := by
  rw [W3_of_ne m ρ c main_arg0 (by decide), W2_of_ne m ρ c main_arg0 (by decide)]
  exact (W1_arr m ρ c 0).trans (((dat0 (V0 m ρ) c).arrAt_in 0 rfl _).trans (A_eq0 (V0 m ρ) c 0))

/-- The row indices at the tail are as launched. -/
theorem W3_main_arg2 (c : Dev nD) : W3 m ρ c (Proc.devRef .tc main_arg2) = m ((c : Thread nD τ).loc main_arg2) := by
  rw [W3_of_ne m ρ c main_arg2 (by decide), W2_of_ne m ρ c main_arg2 (by decide)]
  exact W1_of_ne m ρ c main_arg2 (by decide)

/-- The column indices at the tail are as launched. -/
theorem W3_main_arg3 (c : Dev nD) : W3 m ρ c (Proc.devRef .tc main_arg3) = m ((c : Thread nD τ).loc main_arg3) := by
  rw [W3_of_ne m ρ c main_arg3 (by decide), W2_of_ne m ρ c main_arg3 (by decide)]
  exact W1_of_ne m ρ c main_arg3 (by decide)

/-! ## The result -/

/-- After the last host operation the result buffer holds `result` of the launched arguments. -/
theorem W4_main_v20 (c : Dev nD) :
    W4 m ρ c (Proc.devRef .tc main_v20)
      = result (m ((c : Thread nD τ).loc main_arg0)) (m ((c : Thread nD τ).loc main_arg1))
          (m ((c : Thread nD τ).loc main_arg2)) (m ((c : Thread nD τ).loc main_arg3)) := by
  show StableHlo.after hostOps2 (W3 m ρ c) (Proc.devRef .tc main_v20) = _
  after_results
  rw [W3_main_v0, W3_main_v2, W3_main_arg0, W3_main_arg2, W3_main_arg3]
  rfl

end Cert.KernelIdeal.Named

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.PreRead.lean ====
/-
  What the precondition says of the inputs, at the ideal float values.
  The precondition is a conjunction of three "all entries" tests, each a reduction by "and" of an array
  of comparison bits into one bit: |emb| < +∞ everywhere, |vals| < +∞ everywhere, and rows ≥ 0 (signed)
  everywhere.  When it holds, every table entry and every edge weight is a real number, and no row index
  is negative.
-/
import proofs.«150289_j59090160058391_2_alg».proof.Pre_finite_inputs
import proofs.«150289_j59090160058391_2_alg».proof.Proof.LibFinite
import Idealize.ShloMosaic.Lib.ReduceAll
import Idealize.ShloMosaic.Lib.Affine
import Idealize.ShloMosaic.Lib.ValueIdx

noncomputable section

namespace Cert.PreRead

open Idealize.ShloMosaic Idealize.ShloMosaic.ValueIdx Cert.Pre_finite_inputs

/-- The three facts the precondition gives: real table entries, real edge weights, nonnegative row indices. -/
theorem of_pre [Cert.Pre_finite_inputs.Facts] (x0 : FVec Ideal S100000x128 .f32) (x1 : FVec Ideal S1600000 .f32)
    (x2 x3 : IVec S1600000 32)
    (h : Cert.Pre_finite_inputs.fn (F := Ideal) x0 x1 x2 x3 = fun _ => 1#1) :
    (∀ i, ∃ r : ℝ, (x0 i : EReal) = (r : EReal)) ∧ (∀ e, ∃ r : ℝ, (x1 e : EReal) = (r : EReal))
      ∧ (∀ e, (0#32 : BitVec 32).toInt ≤ (x2 e).toInt) := by
  have h0 := congrFun h ix0
  dsimp only [Cert.Pre_finite_inputs.fn] at h0
  obtain ⟨h01, hC⟩ := IntOp.andi_eq_one.mp h0
  obtain ⟨hA, hB⟩ := IntOp.andi_eq_one.mp h01
  refine ⟨fun i => Cert.Finite.real_of_all x0 _ (fun _ => rfl) _ _ _ _ hA i,
    fun e => Cert.Finite.real_of_all x1 _ (fun _ => rfl) _ _ _ _ hB e, fun e => ?_⟩
  exact IntOp.cmpi_sge.mp (Host.reduce_andi_all _ _ _ _ _ hC e)

end Cert.PreRead

end
-- ==== Proof.Blend.lean ====
/-
  The arithmetic that joins the two programs, on the extended reals.
  One output entry of the kernel is  a * (1/4) + ∑ (v j * (3/4)) * g j,  one of the reference is
  (a + 3 * (0 + ∑ v j * g j)) / 4,  the sums over the same finite set of edges: `a` the table entry, `v j`
  an edge weight and `g j` a gathered table entry.  For real `a`, `v j`, `g j` both are the real number
  a/4 + (3/4) ∑ v j g j: the quotient by the real 4 is the product with 1/4, which distributes over the
  real sum, and 3 * (1/4) = 3/4 moves inside the sum.  Finiteness is what is used: distributing a factor
  over a sum is not a law of the extended reals at the infinities.
  The four float words are the binary32 patterns of 1/4, 3/4, 3 and 4, each an exact dyadic.
-/
import Idealize.ShloMosaic.PureOps.Ideal
import Idealize.ShloMosaic.PureOps.Ideal.Laws

noncomputable section

open scoped BigOperators

namespace Cert.Blend

open Idealize.ShloMosaic

/-- The coercion of the reals into the extended reals commutes with finite sums. -/
theorem coe_sum {J : Type} (S : Finset J) (f : J → ℝ) :
    ((∑ j ∈ S, f j : ℝ) : EReal) = ∑ j ∈ S, (f j : EReal) := by
  classical
  induction S using Finset.induction_on with
  | empty => simp
  | insert a s ha ih => rw [Finset.sum_insert ha, Finset.sum_insert ha, EReal.coe_add, ih]

/-- The word 0x3E800000 denotes 1/4. -/
theorem ofBits_quarter : Ideal.ofBits .f32 0x3E800000#32 = ((1 / 4 : ℝ) : EReal) := by
  simp [Ideal.ofBits, Ideal.ieee, -EReal.coe_mul]; norm_num

/-- The word 0x3F400000 denotes 3/4. -/
theorem ofBits_three_quarters : Ideal.ofBits .f32 0x3F400000#32 = ((3 / 4 : ℝ) : EReal) := by
  simp [Ideal.ofBits, Ideal.ieee, -EReal.coe_mul]; norm_num

/-- The word 0x40400000 denotes 3. -/
theorem ofBits_three : Ideal.ofBits .f32 0x40400000#32 = ((3 : ℝ) : EReal) := by
  simp [Ideal.ofBits, Ideal.ieee, -EReal.coe_mul]; norm_num

/-- The word 0x40800000 denotes 4. -/
theorem ofBits_four : Ideal.ofBits .f32 0x40800000#32 = ((4 : ℝ) : EReal) := by
  simp [Ideal.ofBits, Ideal.ieee, -EReal.coe_mul]; norm_num

/-- The law: for a real table entry, real weights and real gathered entries, the pre-scaled accumulation is the
    reference's affine combination. -/
theorem blend {J : Type} (S : Finset J) (a : EReal) (v g : J → EReal)
    (ha : ∃ r : ℝ, a = (r : EReal)) (hv : ∀ j, ∃ r : ℝ, v j = (r : EReal)) (hg : ∀ j, ∃ r : ℝ, g j = (r : EReal)) :
    a * Ideal.ofBits .f32 0x3E800000#32 + ∑ j ∈ S, (v j * Ideal.ofBits .f32 0x3F400000#32) * g j
      = Ideal.div (a + Ideal.ofBits .f32 0x40400000#32 * (Ideal.ofBits .f32 0x00000000#32 + ∑ j ∈ S, v j * g j))
          (Ideal.ofBits .f32 0x40800000#32) := by
  obtain ⟨a, rfl⟩ := ha
  choose v' hv' using hv
  choose g' hg' using hg
  obtain rfl : v = fun j => (v' j : EReal) := funext hv'
  obtain rfl : g = fun j => (g' j : EReal) := funext hg'
  have e1 : ∑ j ∈ S, ((v' j : EReal) * ((3 / 4 : ℝ) : EReal)) * (g' j : EReal)
      = ((∑ j ∈ S, v' j * (3 / 4) * g' j : ℝ) : EReal) := by
    rw [coe_sum]; exact Finset.sum_congr rfl fun j _ => by rw [EReal.coe_mul, EReal.coe_mul]
  have e2 : ∑ j ∈ S, (v' j : EReal) * (g' j : EReal) = ((∑ j ∈ S, v' j * g' j : ℝ) : EReal) := by
    rw [coe_sum]; exact Finset.sum_congr rfl fun j _ => by rw [EReal.coe_mul]
  have e3 : ∑ j ∈ S, v' j * (3 / 4) * g' j = (3 / 4) * ∑ j ∈ S, v' j * g' j := by
    rw [Finset.mul_sum]; exact Finset.sum_congr rfl fun j _ => by ring
  rw [ofBits_quarter, ofBits_three_quarters, ofBits_three, ofBits_four, Ideal.ofBits_zero_f32,
    Ideal.div_coe (by norm_num : (4 : ℝ) ≠ 0)]
  dsimp only
  rw [e1, e2, zero_add, ← EReal.coe_mul, ← EReal.coe_add, ← EReal.coe_mul, ← EReal.coe_add, ← EReal.coe_mul, e3]
  congr 1
  ring

/-- The law under the accumulating scatter: scattering the pre-scaled updates onto the pre-scaled table is the
    reference's affine combination of the table with the scatter of the plain updates onto zeros — entry by entry
    the two sums run over the same updates, those whose index lands on the entry. -/
theorem scatter_blend {s si su : Shape} (d : ScatterDims s si su) {w : Nat} (idx : IVec si w)
    (a : s.Idx → EReal) (v g : su.Idx → EReal)
    (ha : ∀ i, ∃ r : ℝ, a i = (r : EReal)) (hv : ∀ j, ∃ r : ℝ, v j = (r : EReal)) (hg : ∀ j, ∃ r : ℝ, g j = (r : EReal)) :
    Ideal.hostScatterAdd d (fun i => a i * Ideal.ofBits .f32 0x3E800000#32) idx
        (fun j => (v j * Ideal.ofBits .f32 0x3F400000#32) * g j)
      = fun i => Ideal.div (a i + Ideal.ofBits .f32 0x40400000#32
          * Ideal.hostScatterAdd d (fun _ => Ideal.ofBits .f32 0x00000000#32) idx (fun j => v j * g j) i)
          (Ideal.ofBits .f32 0x40800000#32) := by
  funext i
  unfold Ideal.hostScatterAdd
  exact blend _ (a i) v g (ha i) hv hg

end Cert.Blend

end
-- ==== Proof.LibGatherRows.lean ====
/-
  A gather of whole rows, and of single entries, by one start index per row of the index array, read at an index.

  `x[idx]` for a matrix `x : [N, D]` and an integer vector `idx : [E]` lowers to a gather whose start indices are the
  column `[E, 1]`: offset axis `1`, collapsed axis `0`, start index map `[0]`, index vector axis `1`, slice sizes
  `[1, D]`. Its element `(e, d)` is `x (r, d)` where `r` is the start index `idx (e, 0)` read as a signed integer and
  clamped into `[0, N − 1]`. The same with a vector `x : [N]` (no offset axis, slice sizes `[1]`): element `e` is `x r`
  for the SAME `r`. So two such gathers by one index array pick the same row, whatever the operands are.
-/
import Idealize.ShloMosaic.PureOps.ShapeOps
import Idealize.ShloMosaic.Lib.ValueIdx

namespace Cert.Lib.GatherRows

open Idealize.ShloMosaic Idealize.ShloMosaic.ValueIdx

variable {α : Type}

/-- The row a start index selects among `N`: the word read signed, negative values to `0`, clamped to `N − 1`. -/
def rowOf (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, D]`, start indices `[E, 1]`, result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of an entry gather: operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A row gather at `(e, d)` is the operand at `(rowOf e, d)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowsDims N D E wf) x idx (ix2 e d) = x (ix2 (rowOf N hN idx e) d) := by
  -- axis 0: the clamped start index, no batch and no offset coordinate
  have h0 : (rowsDims N D E wf).start (ix2 e d) idx (0 : Fin 2) + (rowsDims N D E wf).batchCoord (ix2 e d) (0 : Fin 2)
      + (rowsDims N D E wf).offCoord (ix2 e d) (0 : Fin 2) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e d) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own coordinate as the offset
  have h1 : (rowsDims N D E wf).start (ix2 e d) idx (1 : Fin 2) + (rowsDims N D E wf).batchCoord (ix2 e d) (1 : Fin 2)
      + (rowsDims N D E wf).offCoord (ix2 e d) (1 : Fin 2) = d.val := by
    have hn : (1 : Fin 2) ∉ (rowsDims N D E wf).startIndexMap :=
      show (1 : Fin 2) ∉ ([0] : List (Fin 2)) by decide
    have hk : (1 : Fin 2) ∈ (rowsDims N D E wf).sKept :=
      (GatherDims.mem_sKept _ _).mpr ⟨show (1 : Fin 2) ∉ ([0] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- An entry gather at `e` is the operand at `rowOf e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  have h0 : (entriesDims N E wf).start (ix1 e) idx (0 : Fin 1) + (entriesDims N E wf).batchCoord (ix1 e) (0 : Fin 1)
      + (entriesDims N E wf).offCoord (ix1 e) (0 : Fin 1) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N E wf).startIndexMap from List.mem_singleton.mpr rfl)]
    have hsi : (entriesDims N E wf).siIdx (ix1 e) ⟨List.idxOf (0 : Fin 1) (entriesDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.Lib.GatherRows
-- ==== Proof.Bridge.lean ====
/-
  The kernel's result term is the reference's, at the ideal float values, when every table entry and
  every edge weight is real and no row index is negative.
  * With no negative row index the kernel's normalisation of the row indices changes nothing, so both
    programs scatter at the same indices.
  * The kernel's weights go through a reshape to 12500 x 128, the scaling, and the reshape back: the two
    reshapes cancel and the scaling is entry by entry, so the update rows are (weight * 3/4) * gathered row.
  * The gathered rows are the same array on both sides (same table, same normalised column indices), and
    each of its entries is a table entry, hence real.
  * What is left is the scatter-level law of `Blend`.
-/
import proofs.«150289_j59090160058391_2_alg».proof.Proof.KernelValue
import proofs.«150289_j59090160058391_2_alg».proof.Proof.Gen.ReferenceIdeal.Read
import proofs.«150289_j59090160058391_2_alg».proof.Proof.Blend
import proofs.«150289_j59090160058391_2_alg».proof.Proof.LibGatherRows
import Idealize.ShloMosaic.Lib.ValueIdx
import Idealize.ShloMosaic.Lib.Affine

set_option maxRecDepth 16384

noncomputable section

namespace Cert.Bridge

open Idealize.ShloMosaic Idealize.ShloMosaic.ValueIdx
open Cert.KernelIdeal Cert.KernelIdeal.Gen Cert.KernelIdeal.Named

/-- With no negative entry the normalisation of an index vector is the identity. -/
theorem wrapNeg_of_nonneg (x : IVec S1600000 32) (h : ∀ e, (0#32 : BitVec 32).toInt ≤ (x e).toInt) :
    wrapNeg x = x := by
  funext e
  show Scalar.select (IntOp.cmpi .slt (x e) 0#32) _ (x e) = x e
  have hc : ¬ IntOp.cmpi .slt (x e) 0#32 = 1#1 := fun hc => absurd (IntOp.cmpi_slt.mp hc) (not_lt.mpr (h e))
  rw [eq_zero_of_ne_one hc, select_zero]

/-- Scaling entry by entry between a reshape and the reshape back is scaling the flat array. -/
theorem flatten_scaled {F : FTy → Type} [FloatOps F] (w : BitVec 32) (x1 : FVec F S1600000 .f32) :
    shapeCast S1600000 (scaledBy w (shapeCast S12500x128 x1 shapeCasts_S1600000_S12500x128)) shapeCasts_S12500x128_S1600000
      = scaledBy w x1 :=
  shapeCast_shapeCast (scaledBy w x1) shapeCasts_S1600000_S12500x128 shapeCasts_S12500x128_S1600000

/-- Every entry of the gathered rows is an entry of the table. -/
theorem gather_real (x0 : FVec Ideal S100000x128 .f32) (h0 : ∀ i, ∃ r : ℝ, (x0 i : EReal) = (r : EReal))
    (idx : IVec S1600000x1 32) (j : S1600000x128.Idx) :
    ∃ r : ℝ, (Host.gather gather_S100000x128_S1600000x1_S1600000x128_1_0_n_n_0_1_1128 x0 idx j : EReal) = (r : EReal) := by
  obtain ⟨e, d, rfl⟩ : ∃ (e : Fin 1600000) (d : Fin 128), j = ix2 e d := ⟨j 0, j 1, eq_ix2 j⟩
  have hg := Cert.Lib.GatherRows.gather_rows_apply (N := 100000) (D := 128) (E := 1600000) (by decide)
    gather_S100000x128_S1600000x1_S1600000x128_1_0_n_n_0_1_1128_wf x0 idx e d
  exact ⟨_, (hg.trans (h0 _).choose_spec)⟩

/-- The row indices as a column, as both scatters take them. -/
abbrev rowCol (x : IVec S1600000 32) : IVec S1600000x1 32 :=
  broadcastInDim S1600000x1 ![0] bcast_S1600000_S1600000x1_0 x

/-- The gathered table rows: the table at the normalised column indices. -/
abbrev gathered (x0 : FVec Ideal S100000x128 .f32) (x3 : IVec S1600000 32) : FVec Ideal S1600000x128 .f32 :=
  Host.gather gather_S100000x128_S1600000x1_S1600000x128_1_0_n_n_0_1_1128 x0 (rowCol (wrapNeg x3))

/-- The kernel's side in the law's form: the table times the first literal, and update rows
    (weight * second literal) * gathered entry, the weight read through the reference's own broadcast. -/
theorem kernel_side (x0 : FVec Ideal S100000x128 .f32) (x1 : FVec Ideal S1600000 .f32) (x2 x3 : IVec S1600000 32) :
    Host.scatterAdd scatter_S100000x128_S1600000x1_S1600000x128_1_0_0_1
        (scaledBy (F := Ideal) 0x3E800000#32 x0) (rowCol x2)
        (mulf (broadcastInDim S1600000x128 ![0, 1] bcast_S1600000x1_S1600000x128_0_1
          (broadcastInDim S1600000x1 ![0] bcast_S1600000_S1600000x1_0 (scaledBy (F := Ideal) 0x3F400000#32 x1)))
          (gathered x0 x3))
      = Ideal.hostScatterAdd scatter_S100000x128_S1600000x1_S1600000x128_1_0_0_1
          (fun i => x0 i * Ideal.ofBits .f32 0x3E800000#32) (rowCol x2)
          (fun j => (Cert.ReferenceIdeal.Read.val_main_v8 (F := Ideal) x1 j * Ideal.ofBits .f32 0x3F400000#32)
            * gathered x0 x3 j) := rfl

/-- The reference's update rows: weight * gathered entry, the gathered rows being the kernel's. -/
theorem reference_updates (x0 : FVec Ideal S100000x128 .f32) (x1 : FVec Ideal S1600000 .f32) (x3 : IVec S1600000 32) :
    Cert.ReferenceIdeal.Read.val_main_v9 (F := Ideal) x0 x1 x3
      = fun j => Cert.ReferenceIdeal.Read.val_main_v8 (F := Ideal) x1 j * gathered x0 x3 j := rfl

/-- The reference scatters onto zeros. -/
theorem reference_zeros :
    Cert.ReferenceIdeal.Read.val_main_v10 (F := Ideal) = fun _ => Ideal.ofBits .f32 0x00000000#32 := rfl

/-- The reference scatters at the row indices as given. -/
theorem reference_rows (x2 : IVec S1600000 32) : Cert.ReferenceIdeal.Read.val_main_v11 (F := Ideal) x2 = rowCol x2 := rfl

/-- The reference's scatter stage in the law's form. -/
theorem reference_scatter (x0 : FVec Ideal S100000x128 .f32) (x1 : FVec Ideal S1600000 .f32) (x2 x3 : IVec S1600000 32) :
    Cert.ReferenceIdeal.Read.val_main_v12 (F := Ideal) x0 x1 x2 x3
      = Ideal.hostScatterAdd scatter_S100000x128_S1600000x1_S1600000x128_1_0_0_1
          (fun _ => Ideal.ofBits .f32 0x00000000#32) (rowCol x2)
          (fun j => Cert.ReferenceIdeal.Read.val_main_v8 (F := Ideal) x1 j * gathered x0 x3 j) := by
  unfold Cert.ReferenceIdeal.Read.val_main_v12
  rw [reference_updates, reference_zeros, reference_rows]
  rfl

/-- The reference's last stage in the law's form: (table + 3 * scatter) / 4, entry by entry. -/
theorem reference_side (x0 : FVec Ideal S100000x128 .f32) (x1 : FVec Ideal S1600000 .f32) (x2 x3 : IVec S1600000 32) :
    Cert.ReferenceIdeal.Read.val_main_v17 (F := Ideal) x0 x1 x2 x3
      = fun i => Ideal.div (x0 i + Ideal.ofBits .f32 0x40400000#32
          * Ideal.hostScatterAdd scatter_S100000x128_S1600000x1_S1600000x128_1_0_0_1
              (fun _ => Ideal.ofBits .f32 0x00000000#32) (rowCol x2)
              (fun j => Cert.ReferenceIdeal.Read.val_main_v8 (F := Ideal) x1 j * gathered x0 x3 j) i)
          (Ideal.ofBits .f32 0x40800000#32) := by
  funext i
  rw [Cert.ReferenceIdeal.Read.val_main_v17_apply, Cert.ReferenceIdeal.Read.val_main_v15_apply,
    Cert.ReferenceIdeal.Read.val_main_v14_apply, Cert.ReferenceIdeal.Read.val_main_v16_apply,
    Cert.ReferenceIdeal.Read.val_main_cst_2_apply, Cert.ReferenceIdeal.Read.val_main_v13_apply,
    Cert.ReferenceIdeal.Read.val_main_cst_1_apply, reference_scatter]
  rfl

/-- The kernel's result term is the reference's last stage. -/
theorem result_eq_reference (x0 : FVec Ideal S100000x128 .f32) (x1 : FVec Ideal S1600000 .f32) (x2 x3 : IVec S1600000 32)
    (h0 : ∀ i, ∃ r : ℝ, (x0 i : EReal) = (r : EReal)) (h1 : ∀ e, ∃ r : ℝ, (x1 e : EReal) = (r : EReal))
    (h2 : ∀ e, (0#32 : BitVec 32).toInt ≤ (x2 e).toInt) :
    result (F := Ideal) x0 x1 x2 x3 = Cert.ReferenceIdeal.Read.val_main_v17 (F := Ideal) x0 x1 x2 x3 := by
  unfold result
  rw [wrapNeg_of_nonneg x2 h2, flatten_scaled, reference_side]
  refine (kernel_side x0 x1 x2 x3).trans ?_
  exact Cert.Blend.scatter_blend scatter_S100000x128_S1600000x1_S1600000x128_1_0_0_1 (rowCol x2) x0
    (Cert.ReferenceIdeal.Read.val_main_v8 (F := Ideal) x1) (gathered x0 x3) h0
    (fun j => by
      rw [Cert.ReferenceIdeal.Read.val_main_v8_apply, Cert.ReferenceIdeal.Read.val_main_v0_apply]; exact h1 _)
    (fun j => gather_real x0 h0 _ j)

end Cert.Bridge

end
-- ==== Proof.lean ====
/-
  Two programs over a node table emb : f32[100000, 128], edge weights vals : f32[1600000] and edge endpoints
  rows, cols : i32[1600000], compared at the ideal float values (every float an extended real).

  The reference gathers the table rows at cols, weights each by its edge's weight, sums the weighted rows into
  the row given by rows (a scatter-add onto zeros), and returns (emb + 3 * side) / 4.
  The kernel first scales the table by the word of 1/4 (a region of ten blocks of 10000 rows) and the weights,
  reshaped to 12500 x 128, by the word of 3/4 (a region of one block); its host tail then scatter-adds the
  products of the scaled weights with the gathered rows ONTO the scaled table.

  Entry (r, d) of the kernel is emb(r,d)/4 + ∑ (3/4 · vals e) · emb(cols e, d) over the edges e landing on row r,
  of the reference (emb(r,d) + 3 · ∑ vals e · emb(cols e, d)) / 4: equal for real entries and weights, which
  the precondition gives.  The kernel moves a negative row index up by 100000 before scattering and the
  reference does not, so the two agree on where an edge lands exactly when no row index is negative: the
  precondition's third conjunct.  Column indices are normalised alike on both sides and need no condition.

  The frames of the two kernel programs are the generated ones; the reference's frame is its generated run with
  the result dropped; the idealization rewrote nothing.
-/
import proofs.«150289_j59090160058391_2_alg».proof.Defs
import proofs.«150289_j59090160058391_2_alg».proof.Proof.Gen.Kernel
import proofs.«150289_j59090160058391_2_alg».proof.Proof.Gen.Kernel.Skeleton
import proofs.«150289_j59090160058391_2_alg».proof.Proof.Gen.Kernel.Launch
import proofs.«150289_j59090160058391_2_alg».proof.Proof.Gen.Kernel.Points
import proofs.«150289_j59090160058391_2_alg».proof.Proof.Gen.Kernel.Frame
import proofs.«150289_j59090160058391_2_alg».proof.Proof.Gen.KernelIdeal
import proofs.«150289_j59090160058391_2_alg».proof.Proof.Gen.KernelIdeal.Skeleton
import proofs.«150289_j59090160058391_2_alg».proof.Proof.Gen.KernelIdeal.Launch
import proofs.«150289_j59090160058391_2_alg».proof.Proof.Gen.KernelIdeal.Points
import proofs.«150289_j59090160058391_2_alg».proof.Proof.Gen.KernelIdeal.Frame
import proofs.«150289_j59090160058391_2_alg».proof.Proof.Gen.ReferenceIdeal
import proofs.«150289_j59090160058391_2_alg».proof.Proof.Gen.ReferenceIdeal.Run
import proofs.«150289_j59090160058391_2_alg».proof.Proof.Gen.ReferenceIdeal.Read
import proofs.«150289_j59090160058391_2_alg».proof.Proof.Gen.Pre_finite_inputs
import proofs.«150289_j59090160058391_2_alg».proof.Proof.KernelRun
import proofs.«150289_j59090160058391_2_alg».proof.Proof.KernelValue
import proofs.«150289_j59090160058391_2_alg».proof.Proof.PreRead
import proofs.«150289_j59090160058391_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both programs end with the same result:
    the kernel's term of its arguments, which is the reference's. -/
theorem algebraic : Cert.algebraic_KernelIdeal_ReferenceIdeal := by
  intro m ρ m' ρ' hpre hagree
  refine ⟨fun c => Cert.KernelIdeal.Named.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Named.W4_main_v20 m ρ c), (h c).2⟩)
      (Cert.KernelIdeal.Named.run m ρ)
  · refine (θ_run Cert.ReferenceIdeal.defs _ _).mono (fun _ h c => ⟨?_, (h c).2⟩)
      (Cert.ReferenceIdeal.Value.run (F := Ideal) m' ρ')
    obtain ⟨h0, h1, h2⟩ := Cert.PreRead.of_pre _ _ _ _ (hpre c)
    rw [(h c).1, Cert.ReferenceIdeal.Read.val_main_v17_eq, (hagree c).1, (hagree c).2.1, (hagree c).2.2.1,
      (hagree c).2.2.2]
    exact (Cert.Bridge.result_eq_reference _ _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
